-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S131072x128 .f32) (main_arg1 : FVec F S131072x64 .f32) (main_arg2 : FVec F S64x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S128x128 : Shape := ⟨2, ![128, 128]⟩
abbrev S8192x128 : Shape := ⟨2, ![8192, 128]⟩
abbrev S8192x64 : Shape := ⟨2, ![8192, 64]⟩
abbrev S8x128 : Shape := ⟨2, ![8, 128]⟩
abbrev S8192 : Shape := ⟨1, ![8192]⟩
abbrev S8192x1 : Shape := ⟨2, ![8192, 1]⟩
abbrev S128x64 : Shape := ⟨2, ![128, 64]⟩
abbrev S1 : Shape := ⟨1, ![1]⟩
abbrev S1x1 : Shape := ⟨2, ![1, 1]⟩

abbrev nBuf : Space → Nat
  | .hbm => 15
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S131072x64, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S1x64, .f32⟩
  | .hbm, ⟨8, _⟩ => ⟨S128x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x64, .f32⟩
  | .local _ .vmem, ⟨6, _⟩ => ⟨S8x128, .f32⟩
  | .local _ .vmem, ⟨7, _⟩ => ⟨S8x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  shapeCasts_S64x1_S1x64 : S64x1.ShapeCasts S1x64
  inb_S8192x128_S8192x128_0_0 : ∀ a, (![0, 0] : Fin 2 → Nat) a + S8192x128.size a ≤ S8192x128.size a
  h_S8192x128 : 0 < S8192x128.numel
  inb_S8192x64_S8192x64_0_0 : ∀ a, (![0, 0] : Fin 2 → Nat) a + S8192x64.size a ≤ S8192x64.size a
  h_S8192x64 : 0 < S8192x64.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S8192x128_S8192 : S8192x128.Reduces [1] S8192
  shapeCasts_S8192_S8192x1 : S8192.ShapeCasts S8192x1
  bitsLt_bf16_f32 : FTy.bits .bf16 < FTy.bits .f32
  transposes_S64x128_p1_0_S128x64 : S64x128.Transposes [1, 0] S128x64
  broadcasts_S8192x1_S8192x64 : S8192x1.Broadcasts S8192x64
  broadcasts_S1x64_S8192x64 : S1x64.Broadcasts S8192x64
  reduces_S8192x64_S64 : S8192x64.Reduces [0] S64
  shapeCasts_S64_S1x64 : S64.ShapeCasts S1x64
  reduces_S1x64_S1 : S1x64.Reduces [1] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩
abbrev S131072 : Shape := ⟨1, ![131072]⟩
abbrev S64 : Shape := ⟨1, ![64]⟩
abbrev S128x64 : Shape := ⟨2, ![128, 64]⟩
abbrev S131072x1 : Shape := ⟨2, ![131072, 1]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x64, .f32⟩
  | .hbm, ⟨2, _⟩ => ⟨S64x128, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S64x128, .f32⟩
  | .hbm, ⟨7, _⟩ => ⟨S_, .f32⟩
  | .hbm, ⟨8, _⟩ => ⟨S64, .f32⟩
  | .hbm, ⟨9, _⟩ => ⟨S128x64, .f32⟩
  | .hbm, ⟨10, _⟩ => ⟨S131072x64, .f32⟩
  | .hbm, ⟨11, _⟩ => ⟨S131072x1, .f32⟩
  | .hbm, ⟨12, _⟩ => ⟨S1x64, .f32⟩
  | .hbm, ⟨13, _⟩ => ⟨S131072x64, .f32⟩
  | .hbm, ⟨14, _⟩ => ⟨S131072x64, .f32⟩
  | .hbm, ⟨15, _⟩ => ⟨S131072x64, .f32⟩
  | .hbm, ⟨16, _⟩ => ⟨S_, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S131072x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  reducesTo_S64x128_S64_d1 : S64x128.ReducesTo [1] S64
  transposes_S64x128_S128x64_1_0 : S64x128.Transposes [1, 0] S128x64
  bcast_S131072_S131072x1_0 : S131072.BroadcastsInDim S131072x1 (![0] : Fin 1 → Fin S131072x1.rank)
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S_d0_1 : S131072x64.ReducesTo [0, 1] S_
  dot_S131072x128_S128x64_S131072x64_1_0_0_1_n_n_wf : DotDims.WF S131072x128 S128x64 S131072x64 [1] [0] [0] [1] [] []

variable [Facts₀]

def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf

class Facts : Prop extends Facts₀ where

variable [Facts]
-- ==== Proof.LossConsts.lean ====
/-
  The three float constants the two programs spell besides zero and two, as the extended reals their words denote:
  the reciprocal 2⁻¹⁰ of the 1024 copies of a block's partial sum, the reciprocal 2⁻²³ of the N·K = 2²³ summands of the mean, and the
  reference's divisor 2²³ itself. All three are powers of two, so each word denotes its number exactly.
-/
import Idealize.ShloMosaic.PureOps.Ideal

noncomputable section

namespace Cert.GmmLoss

open Idealize.ShloMosaic

/-- The word of `9.765625e-4` denotes `1/1024`. -/
theorem ofBits_inv1024 : Ideal.ofBits .f32 0x3A800000#32 = ((1 / 1024 : ℝ) : EReal) := by
  simp [Ideal.ofBits, Ideal.ieee, -EReal.coe_mul] <;> norm_num

/-- The word of `1.1920929e-7` denotes `1/8388608`. -/
theorem ofBits_inv8388608 : Ideal.ofBits .f32 0x34000000#32 = ((1 / 8388608 : ℝ) : EReal) := by
  simp [Ideal.ofBits, Ideal.ieee, -EReal.coe_mul] <;> norm_num

/-- The word `0x4B000000` denotes `8388608`. -/
theorem ofBits_8388608 : Ideal.ofBits .f32 0x4B000000#32 = ((8388608 : ℝ) : EReal) := by
  simp [Ideal.ofBits, Ideal.ieee, -EReal.coe_mul] <;> norm_num

end Cert.GmmLoss

end
-- ==== Proof.LossSpec.lean ====
/-
  The loss both programs compute, as one function of the three argument arrays, and the regrouping of its sum.

  For rows `n < 131072` of `X`, centres `k < 64` of `mus` and weights `r[n, k]`, the summand is
  `r[n,k] · ((Σ_d X[n,d]² + Σ_d mus[k,d]²) − 2 · Σ_d X[n,d]·mus[k,d])` and the loss is the sum of all 2²³ summands divided by 2²³.

  The reference sums every summand at once. The kernel cuts the rows into 16 blocks of 8192, forms each block's partial sum
  (over the centres, and under each centre over the block's rows), writes 1024 copies of it into an `[8, 128]` tile of a `[128, 128]`
  array, sums that array, and multiplies by 2⁻¹⁰ and by 2⁻²³. Sums of extended reals may be regrouped freely (addition is commutative
  and associative there), `1024` copies of `p` sum to `1024 · p`, and `1024 · 2⁻¹⁰ = 1`; no distributivity over an infinite value is used,
  so nothing here needs the inputs finite.
-/
import Idealize.ShloMosaic.PureOps.Ideal
import Idealize.ShloMosaic.PureOps.Ideal.Laws
import Idealize.ShloMosaic.Lib.ValueIdx
import proofs.«169104_j7834020348325_2_alg».proof.Proof.LossConsts

noncomputable section

open scoped BigOperators

namespace Cert.GmmLoss

open Idealize.ShloMosaic Idealize.ShloMosaic.ValueIdx

/-- Row `r` of block `t` is row `8192·t + r` of the array. -/
def row (t : Fin 16) (r : Fin 8192) : Fin 131072 := ⟨8192 * t.val + r.val, by omega⟩

/-- The block a row of the `[128, 128]` output array belongs to: eight rows per block. -/
def blockOf (R : Fin 128) : Fin 16 := ⟨R.val / 8, by omega⟩

/-- The summand at row `n` and centre `k`: the weight times the expanded squared distance. `two` is the value of the word `2.0`,
    the same word in both programs, so it is never evaluated. -/
def summand (two : EReal) (X : FVec Ideal ⟨2, ![131072, 128]⟩ .f32) (R : FVec Ideal ⟨2, ![131072, 64]⟩ .f32)
    (M : FVec Ideal ⟨2, ![64, 128]⟩ .f32) (n : Fin 131072) (k : Fin 64) : EReal :=
  R (ix2 n k) * (((∑ d : Fin 128, X (ix2 n d) * X (ix2 n d)) + ∑ d : Fin 128, M (ix2 k d) * M (ix2 k d))
    - two * ∑ d : Fin 128, X (ix2 n d) * M (ix2 k d))

/-- A block's partial sum of any summand: over the centres, and under each centre over the block's rows. -/
def blockSum (f : Fin 131072 → Fin 64 → EReal) (t : Fin 16) : EReal := ∑ k : Fin 64, ∑ r : Fin 8192, f (row t r) k

/-- The sum of every summand. -/
def total (f : Fin 131072 → Fin 64 → EReal) : EReal := ∑ j : (⟨2, ![131072, 64]⟩ : Shape).Idx, f (j 0) (j 1)

/-- A sum over the 131072 rows is the sum over the 16 blocks of the sums over each block's 8192 rows. -/
theorem sum_rows {A : Type*} [AddCommMonoid A] (F : Fin 131072 → A) :
    ∑ n, F n = ∑ t : Fin 16, ∑ r : Fin 8192, F (row t r) :=
  calc ∑ n, F n = ∑ p : Fin 16 × Fin 8192, F (finProdFinEquiv p) :=
        (Equiv.sum_comp (finProdFinEquiv (m := 16) (n := 8192)) F).symm
    _ = ∑ t : Fin 16, ∑ r : Fin 8192, F (finProdFinEquiv (t, r)) := Fintype.sum_prod_type _
    _ = _ := Finset.sum_congr rfl fun t _ => Finset.sum_congr rfl fun r _ => congrArg F (Fin.ext (by
        show r.val + 8192 * t.val = 8192 * t.val + r.val; omega))

/-- A sum over the 128 rows of the output array of a function of the row's block is eight times the sum over the blocks. -/
theorem sum_blockOf {A : Type*} [AddCommMonoid A] (B : Fin 16 → A) :
    ∑ R : Fin 128, B (blockOf R) = 8 • ∑ t : Fin 16, B t :=
  calc ∑ R : Fin 128, B (blockOf R) = ∑ p : Fin 16 × Fin 8, B (blockOf (finProdFinEquiv p)) :=
        (Equiv.sum_comp (finProdFinEquiv (m := 16) (n := 8)) fun R => B (blockOf R)).symm
    _ = ∑ t : Fin 16, ∑ s : Fin 8, B (blockOf (finProdFinEquiv (t, s))) := Fintype.sum_prod_type _
    _ = ∑ t : Fin 16, 8 • B t := Finset.sum_congr rfl fun t _ => by
        rw [Finset.sum_congr rfl fun s _ => congrArg B (show blockOf (finProdFinEquiv (t, s)) = t from Fin.ext (by
          show (s.val + 8 * t.val) / 8 = t.val; have := s.isLt; omega))]
        rw [Finset.sum_const, Finset.card_univ, Fintype.card_fin]
    _ = _ := (Finset.smul_sum).symm

/-- The block partial sums add up to the sum of every summand. -/
theorem sum_blockSum (f : Fin 131072 → Fin 64 → EReal) : ∑ t : Fin 16, blockSum f t = total f := by
  unfold blockSum total
  rw [sum_idx2, sum_rows]
  refine Finset.sum_congr rfl fun t _ => ?_
  rw [Finset.sum_comm]

/-- The `[128, 128]` array holding, in each row, 128 copies of its block's partial sum, sums to 1024 times the sum of every summand. -/
theorem sum_copies (f : Fin 131072 → Fin 64 → EReal) :
    ∑ j : (⟨2, ![128, 128]⟩ : Shape).Idx, blockSum f (blockOf (j 0)) = (1024 : EReal) * total f := by
  rw [sum_idx2]
  show ∑ R : Fin 128, ∑ _l : Fin 128, blockSum f (blockOf R) = _
  rw [Finset.sum_congr rfl fun R _ => by rw [Finset.sum_const, Finset.card_univ, Fintype.card_fin],
    ← Finset.smul_sum, sum_blockOf, sum_blockSum, smul_smul, EReal.nsmul_eq_mul]
  norm_num

/-- The kernel's closing arithmetic against the reference's: 1024 copies' worth of the sum times 2⁻¹⁰ times 2⁻²³ is the sum divided by 2²³,
    for every extended real (a product of the value with real constants only: associativity and commutativity suffice). -/
theorem scale_eq (S : EReal) :
    ((0 + (1024 : EReal) * S) * Ideal.ofBits .f32 0x3A800000#32) * Ideal.ofBits .f32 0x34000000#32
      = Ideal.div (0 + S) (Ideal.ofBits .f32 0x4B000000#32) := by
  rw [ofBits_inv1024, ofBits_inv8388608, ofBits_8388608, Ideal.div_coe (by norm_num : (8388608 : ℝ) ≠ 0), zero_add, zero_add]
  rw [mul_comm (1024 : EReal) S, mul_assoc, mul_assoc]
  congr 1
  rw [show (1024 : EReal) = ((1024 : ℝ) : EReal) by norm_cast, ← EReal.coe_mul, ← EReal.coe_mul]
  congr 1
  norm_num

end Cert.GmmLoss

end
-- ==== Proof.RefLoss.lean ====
/-
  The reference computes the loss of LossSpec: its result, read one operation at a time, is the sum of every summand
  (plus the zero the host's sum starts from) divided by the word `0x4B000000`.

  At row `n` and centre `k` the reference's `r · d2` is the summand: its two row statistics are the sums of squares of row `n` of `X` and
  of row `k` of `mus` (each started from the zero word, which denotes 0), and its matrix product `X · musᵀ` at `(n, k)` is
  `Σ_d X[n,d] · mus[k,d]` once the transposed operand is read back through the transpose.
-/
import proofs.«169104_j7834020348325_2_alg».proof.Proof.Gen.ReferenceIdeal.Read
import proofs.«169104_j7834020348325_2_alg».proof.Proof.LossSpec

noncomputable section

open scoped BigOperators

namespace Cert.GmmLoss

open Idealize.ShloMosaic Idealize.ShloMosaic.ValueIdx
open Cert.ReferenceIdeal Cert.ReferenceIdeal.Gen Cert.ReferenceIdeal.Read

/-- The reference's weighted squared distance at `(n, k)` is the summand. -/
theorem ref_summand (x0 : FVec Ideal S131072x128 .f32) (x1 : FVec Ideal S131072x64 .f32) (x2 : FVec Ideal S64x128 .f32)
    (n : Fin 131072) (k : Fin 64) :
    val_main_v14 (F := Ideal) x0 x1 x2 (ix2 n k) = summand (Ideal.ofBits .f32 0x40000000#32) x0 x1 x2 n k := by
  have e1 : ∀ d : Fin 128, idx_main_v1 (idx_main_v6 (idx_main_v8 (ix2 n k))) d = ix2 n d := fun d =>
    funext fun a => by match a with | ⟨0, _⟩ => rfl | ⟨1, _⟩ => rfl
  have e3 : ∀ d : Fin 128, idx_main_v3 (idx_main_v7 (idx_main_v9 (ix2 n k))) d = ix2 k d := fun d =>
    funext fun a => by match a with | ⟨0, _⟩ => rfl | ⟨1, _⟩ => rfl
  have el : ∀ d : Fin 128, lidx_main_v5 (ix2 n k) d = ix2 n d := fun d =>
    funext fun a => by match a with | ⟨0, _⟩ => rfl | ⟨1, _⟩ => rfl
  have er : ∀ d : Fin 128, idx_main_v4 (ridx_main_v5 (ix2 n k) d) = ix2 k d := fun d =>
    funext fun a => by match a with | ⟨0, _⟩ => rfl | ⟨1, _⟩ => rfl
  rw [val_main_v14_apply, val_main_v13_apply, val_main_v10_apply, val_main_v12_apply, val_main_v8_apply, val_main_v6_apply,
    val_main_v1_apply, val_main_v9_apply, val_main_v7_apply, val_main_v3_apply, val_main_v11_apply, val_main_v5_apply]
  simp only [val_main_v0_apply, val_main_v2_apply, val_main_v4_apply, val_main_cst_apply, val_main_cst_0_apply,
    val_main_cst_1_apply, e1, e3, el, er, Ideal.mulf_def, Ideal.addf_def, Ideal.subf_def, Ideal.ofBits_def,
    Ideal.ofBits_zero_f32, zero_add]
  rfl

/-- THE REFERENCE'S RESULT: the sum of every summand over the word of 2²³. -/
theorem ref_result (x0 : FVec Ideal S131072x128 .f32) (x1 : FVec Ideal S131072x64 .f32) (x2 : FVec Ideal S64x128 .f32) :
    val_main_v16 (F := Ideal) x0 x1 x2
      = fun _ => Ideal.div (0 + total (summand (Ideal.ofBits .f32 0x40000000#32) x0 x1 x2)) (Ideal.ofBits .f32 0x4B000000#32) := by
  funext i
  rw [val_main_v16_apply, val_main_v15_apply]
  simp only [val_main_cst_2_apply, val_main_cst_3_apply, Ideal.hostDivf_def, Ideal.ofBits_def, Ideal.ofBits_zero_f32]
  unfold total
  refine congrArg (fun s => Ideal.div (0 + s) (Ideal.ofBits .f32 0x4B000000#32)) ?_
  refine Finset.sum_congr rfl fun j _ => ?_
  exact (congrArg (val_main_v14 (F := Ideal) x0 x1 x2) (eq_ix2 j)).trans (ref_summand x0 x1 x2 (j 0) (j 1))

end Cert.GmmLoss

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.BlockPartial.lean ====
/-
  What the kernel body stores, read at an entry of its `[8, 128]` output tile: every entry is the block's partial sum.

  From a block `x` of 8192 rows of `X`, the matching block `w` of weights, the whole `mus` and the row `q` of its squared norms, the body
  forms, at row `r` and centre `k`, `w[r,k] · ((Σ_d x[r,d]² + q[0,k]) − 2 · Σ_d x[r,d]·mus[k,d])`: the row's sum of squares is kept as a
  column and spread over the 64 lanes, `q` is spread over the 8192 rows, and the matrix product of `x` with the transposed `mus` (their
  roundings to a narrower format are the identity on the extended reals) is the sum over the 128 coordinates. It then sums over the rows
  under each centre, sums those 64 column sums, and spreads the one number over the tile.
-/
import proofs.«169104_j7834020348325_2_alg».proof.Proof.Gen.KernelIdeal.Skeleton
import proofs.«169104_j7834020348325_2_alg».proof.Proof.LibKeepdims
import proofs.«169104_j7834020348325_2_alg».proof.Proof.LibMatmul2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GmmLoss

open Idealize.ShloMosaic Idealize.ShloMosaic.ValueIdx
open Cert.KernelIdeal Cert.KernelIdeal.Gen

/-- The sum along the rows of an `[a, b]` tile, read at column `q`, is the sum of that column's `a` entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ src 0x00000000#32 h hφ hacc (ix1 q) = ∑ r : Fin a, src (ix2 r q) := by
  refine (Ideal.multiReduction_add_single src 0x00000000#32 h hφ hacc (ix1 q)).trans ?_
  refine Finset.sum_congr rfl fun r _ => congrArg src (funext fun ax => Fin.ext ?_)
  match ax with
  | ⟨0, _⟩ => rfl
  | ⟨1, _⟩ => rfl

/-- A `[1, 1]` array spread over an `[a, b]` tile reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else c.val; rw [if_pos rfl]

variable [Cert.KernelIdeal.Facts]

/-- THE STORED TILE AT AN ENTRY: the block's partial sum, whatever the entry. -/
theorem stored_apply (x0 : FVec Ideal S8192x128 .f32) (x1 : FVec Ideal S8192x64 .f32) (x2 : FVec Ideal S64x128 .f32)
    (x3 : FVec Ideal S1x64 .f32) (a : Fin 8) (b : Fin 128) :
    k0_pay1 (F := Ideal) x0 x1 x2 x3 (ix2 a b)
      = ∑ k : Fin 64, ∑ r : Fin 8192, x1 (ix2 r k) * (((∑ d : Fin 128, x0 (ix2 r d) * x0 (ix2 r d)) + x3 (ix2 (0 : Fin 1) k))
          - Ideal.ofBits .f32 0x40000000#32 * ∑ d : Fin 128, x0 (ix2 r d) * x2 (ix2 k d)) := by
  unfold k0_pay1
  dsimp only
  refine (broadcastTo_11_ab_apply _ _ a b).trans ?_
  refine (congrFun (shapeCast_self _ _) _).trans ?_
  refine (Cert.Lib.Keepdims.shapeCast_a_a1_apply _ _ (0 : Fin 1) (0 : Fin 1)).trans ?_
  refine (Cert.Lib.Keepdims.rowSum_apply _ _ _ _ (0 : Fin 1)).trans ?_
  refine Finset.sum_congr rfl fun k _ => ?_
  refine (shapeCast_a_1a_apply _ _ (0 : Fin 1) k).trans ?_
  refine (colSum_apply _ _ _ _ k).trans ?_
  refine Finset.sum_congr rfl fun r _ => ?_
  simp only [mulf_apply, subf_apply, addf_apply, broadcast_apply, Ideal.ofBits_def]
  refine congrArg (x1 (ix2 r k) * ·) (congrArg₂ (· - ·) (congrArg₂ (· + ·) ?_ ?_)
    (congrArg (Ideal.ofBits .f32 0x40000000#32 * ·) ?_))
  · refine (Cert.Lib.Keepdims.broadcastTo_a1_ab_apply _ _ r k).trans ?_
    refine (Cert.Lib.Keepdims.shapeCast_a_a1_apply _ _ r (0 : Fin 1)).trans ?_
    exact Cert.Lib.Keepdims.rowSum_apply _ _ _ _ r
  · refine (broadcastTo_1b_ab_apply _ _ r k).trans ?_
    exact congrFun (shapeCast_self _ _) _
  · refine (LibMatmul2.matmul_nn_apply Facts₀.dot_S8192x128_S128x64_S8192x64_1_0_0_1_n_n_wf none _ _ r k).trans ?_
    refine Finset.sum_congr rfl fun d _ => ?_
    exact congrArg (x0 (ix2 r d) * ·) (transpose_ix2_apply _ _ d k)

end Cert.GmmLoss

end
-- ==== Proof.OutputArray.lean ====
/-
  The kernel's `[128, 128]` output array after the region: row `R` holds, in each of its 128 lanes, the partial sum of block `R / 8`.

  Grid point `t` (of 16) reads rows `8192·t … 8192·t + 8191` of `X` and of the weights, the whole `mus` and the whole row of squared
  norms the host computed before the region, and writes back the `[8, 128]` tile at rows `8·t … 8·t + 7`, every entry of which is the
  block's partial sum (BlockPartial). The 16 tiles cover the array, so the array ends as that one function of the arguments.
-/
import proofs.«169104_j7834020348325_2_alg».proof.Proof.Gen.KernelIdeal.Frame
import proofs.«169104_j7834020348325_2_alg».proof.Proof.BlockPartial
import proofs.«169104_j7834020348325_2_alg».proof.Proof.LossSpec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.GmmLoss

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ)

/-- The grid point as a block number below 16. -/
def pt (t : Fin cfg0.N) : Fin 16 := ⟨t.val, lt_of_lt_of_eq t.isLt N_0⟩

/-- The three argument arrays as launched, on core `c`, as arrays of extended reals. -/
abbrev argX (c : Dev nD) : FVec Ideal S131072x128 .f32 := m ((c : Thread nD τ).loc main_arg0)
abbrev argR (c : Dev nD) : FVec Ideal S131072x64 .f32 := m ((c : Thread nD τ).loc main_arg1)
abbrev argM (c : Dev nD) : FVec Ideal S64x128 .f32 := m ((c : Thread nD τ).loc main_arg2)

/-- The value of the word `2.0`. -/
abbrev two : EReal := Ideal.ofBits .f32 0x40000000#32

/-- What the output array ends holding: at row `R`, whatever the lane, the partial sum of block `R / 8` of the summand of the three
    argument arrays. -/
def outArray (X : FVec Ideal S131072x128 .f32) (R : FVec Ideal S131072x64 .f32) (M : FVec Ideal S64x128 .f32) :
    S128x128.Idx → EReal := fun i => blockSum (summand two X R M) (blockOf (i 0))

theorem hz : (![0, 0] : Fin 2 → Nat) = fun _ => 0 := funext fun a => by fin_cases a <;> rfl

/-- The printed index maps, decided over the grid: the two streamed inputs and the output move with the point along the rows, the two
    resident inputs stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The row of squared norms the region finds: the host's sum of squares of each row of `mus`, kept as a column and re-laid as a row. -/
theorem entry_musq (c : Dev nD) :
    (V m c main_v3 : S1x64.Idx → EReal)
      = shapeCast S1x64 (broadcastInDim S64x1 ![0] bcast_S64_S64x1_0
          (Host.reduceAdd (F := Ideal) (mulf (argM m c) (argM m c))
            (constant (F := Ideal) S_ .f32 0x00000000#32) reducesTo_S64x128_S64_d1 h_S_)) shapeCasts_S64x1_S1x64 := by
  show StableHlo.after hostOps0 (fun b => m (c, b)) (Proc.devRef .tc main_v3) = _
  after_results
  rfl

/-- … read at centre `k`: the sum of squares of row `k` of `mus`. -/
theorem entry_musq_apply (c : Dev nD) (k : Fin 64) :
    (V m c main_v3 : S1x64.Idx → EReal) (ix2 (0 : Fin 1) k)
      = ∑ d : Fin 128, argM m c (ix2 k d) * argM m c (ix2 k d) := by
  rw [entry_musq]
  refine (shapeCast_apply _ shapeCasts_S64x1_S1x64 (ix2 (0 : Fin 1) k) (ix2 k (0 : Fin 1)) (by
    rw [Shape.rowMajor_val_two, Shape.rowMajor_val_two]
    show k.val * 1 + 0 = 0 * 64 + k.val
    omega)).trans ?_
  refine (broadcastInDim_apply _ bcast_S64_S64x1_0 _ (ix2 k (0 : Fin 1)) (ix1 k) (fun a => match a with
    | ⟨0, _⟩ => by show k.val = if (64 : Nat) = 1 then 0 else k.val; rw [if_neg (by decide)])).trans ?_
  simp only [Host.reduceAdd, Ideal.hostReduceAdd_def]
  rw [Ideal.hostReduceAdd_single reducesTo_S64x128_S64_d1 (by decide)]
  show Ideal.ofBits .f32 0x00000000#32 + _ = _
  rw [Ideal.ofBits_zero_f32, zero_add]
  refine Finset.sum_congr rfl fun d _ => ?_
  have e : (by decide : S64x128.Reduces [1] S64).lift (ix1 k) d = ix2 k d :=
    funext fun a => Fin.ext (by match a with | ⟨0, _⟩ => rfl | ⟨1, _⟩ => rfl)
  rw [e]
  rfl

/-! ## The blocks a grid point reads -/

/-- Point `t`'s block of `X` at `(r, d)` is `X` at row `8192·t + r`. -/
theorem blockX_apply (c : Dev nD) (t : Fin cfg0.N) (r : Fin 8192) (d : Fin 128) :
    (iblk m c 0 t : FVec Ideal S8192x128 .f32) (ix2 r d) = argX m c (ix2 (row (pt t) r) d) := by
  obtain ⟨e00, e01, -⟩ := idx_facts t
  show V m c main_arg0 (((cfg0.win 0).blk t).view.emb (ix2 r d)) = _
  rw [V_main_arg0]
  refine congrArg (argX m c) (funext fun a => Fin.ext ?_)
  match a with
  | ⟨0, _⟩ => show win0_0.index t (0 : Fin 2) * 8192 + 1 * r.val = 8192 * t.val + r.val; omega
  | ⟨1, _⟩ => show win0_0.index t (1 : Fin 2) * 128 + 1 * d.val = d.val; omega

/-- Point `t`'s block of the weights at `(r, k)` is the weights at row `8192·t + r`. -/
theorem blockR_apply (c : Dev nD) (t : Fin cfg0.N) (r : Fin 8192) (k : Fin 64) :
    (iblk m c 1 t : FVec Ideal S8192x64 .f32) (ix2 r k) = argR m c (ix2 (row (pt t) r) k) := by
  obtain ⟨-, -, e10, e11, -⟩ := idx_facts t
  show V m c main_arg1 (((cfg0.win 1).blk t).view.emb (ix2 r k)) = _
  rw [V_main_arg1]
  refine congrArg (argR m c) (funext fun a => Fin.ext ?_)
  match a with
  | ⟨0, _⟩ => show win0_1.index t (0 : Fin 2) * 8192 + 1 * r.val = 8192 * t.val + r.val; omega
  | ⟨1, _⟩ => show win0_1.index t (1 : Fin 2) * 64 + 1 * k.val = k.val; omega

/-- Every point's block of `mus` is `mus`. -/
theorem blockM_apply (c : Dev nD) (t : Fin cfg0.N) (k : Fin 64) (d : Fin 128) :
    (iblk m c 2 t : FVec Ideal S64x128 .f32) (ix2 k d) = argM m c (ix2 k d) := by
  obtain ⟨-, -, -, -, e20, e21, -⟩ := idx_facts t
  show V m c main_arg2 (((cfg0.win 2).blk t).view.emb (ix2 k d)) = _
  rw [V_main_arg2]
  refine congrArg (argM m c) (funext fun a => Fin.ext ?_)
  match a with
  | ⟨0, _⟩ => show win0_2.index t (0 : Fin 2) * 64 + 1 * k.val = k.val; omega
  | ⟨1, _⟩ => show win0_2.index t (1 : Fin 2) * 128 + 1 * d.val = d.val; omega

/-- Every point's block of the squared norms, at centre `k`, is the sum of squares of row `k` of `mus`. -/
theorem blockQ_apply (c : Dev nD) (t : Fin cfg0.N) (k : Fin 64) :
    (iblk m c 3 t : FVec Ideal S1x64 .f32) (ix2 (0 : Fin 1) k) = ∑ d : Fin 128, argM m c (ix2 k d) * argM m c (ix2 k d) := by
  obtain ⟨-, -, -, -, -, -, e30, e31, -⟩ := idx_facts t
  refine Eq.trans ?_ (entry_musq_apply m c k)
  show V m c main_v3 (((cfg0.win 3).blk t).view.emb (ix2 (0 : Fin 1) k)) = _
  refine congrArg (V m c main_v3 : S1x64.Idx → EReal) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

/-! ## What a point writes back, the cover, the array -/

/-- WHAT POINT `t` WRITES BACK is its tile of `outArray` of the argument arrays. -/
theorem flushed_eq (c : Dev nD) (t : Fin cfg0.N) :
    (dats m 0 c).flushed 4 t = ((cfg0.win 4).blk t).view.read (Elt Ideal) (outArray (argX m c) (argR m c) (argM m c)) := by
  show (cfg0.win 4).cut (grid0.coords t) ((dats m 0 c).after 4 t) = _
  rw [after0_4]
  unfold out0_4
  rw [View.canon_unit_zero hz]
  simp only [View.ld_unit_zero (S := S8192x128) hz, View.ld_unit_zero (S := S8192x64) hz, View.ld_unit_zero (S := S64x128) hz,
    View.ld_unit_zero (S := S1x64) hz]
  obtain ⟨-, -, -, -, -, -, -, -, e40, e41⟩ := idx_facts t
  funext j
  obtain ⟨a, b, rfl⟩ : ∃ (a : Fin 8) (b : Fin 128), j = ix2 a b := ⟨j 0, j 1, eq_ix2 j⟩
  refine (stored_apply (iblk m c 0 t) (iblk m c 1 t) (iblk m c 2 t) (iblk m c 3 t) a b).trans ?_
  show _ = blockSum (summand two (argX m c) (argR m c) (argM m c)) (blockOf ((((cfg0.win 4).blk t).view.emb (ix2 a b)) 0))
  have hb : blockOf ((((cfg0.win 4).blk t).view.emb (ix2 a b)) 0) = pt t := Fin.ext (by
    show (win0_4.index t (0 : Fin 2) * 8 + 1 * a.val) / 8 = t.val
    have := a.isLt; omega)
  rw [hb]
  unfold blockSum summand
  refine Finset.sum_congr rfl fun k _ => Finset.sum_congr rfl fun r _ => ?_
  rw [blockR_apply, blockQ_apply]
  simp only [blockX_apply, blockM_apply]

/-- An index of the array is in point `t`'s tile iff each coordinate is in the tile's range on its axis. -/
theorem mem_tile (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v4).slice (win0_4.rect t)).set ↔ _
  rw [View.set_slice_whole, Rect.mem_set_unit]
  exact Iff.rfl

/-- Every index of the array is in the tile of the point numbered by its row over eight. -/
theorem covered (i : S128x128.Idx) : ∃ t : Fin cfg0.N, (cfg0.win 4).flush t = true ∧ i ∈ ((cfg0.win 4).blk t).view.set := by
  have hi0 : (i 0).val < 128 := (i 0).isLt
  have hi1 : (i 1).val < 128 := (i 1).isLt
  have hN : cfg0.N = 16 := N_0
  refine ⟨⟨(i 0).val / 8, by rw [hN]; omega⟩, flush0_4 _, ?_⟩
  rw [mem_tile]
  obtain ⟨-, -, -, -, -, -, -, -, e40, e41⟩ := idx_facts ⟨(i 0).val / 8, by rw [hN]; omega⟩
  intro a
  match a with
  | ⟨0, _⟩ =>
    show win0_4.index _ (0 : Fin 2) * 8 ≤ (i 0).val ∧ (i 0).val < win0_4.index _ (0 : Fin 2) * 8 + 8
    rw [e40]; show (i 0).val / 8 * 8 ≤ (i 0).val ∧ (i 0).val < (i 0).val / 8 * 8 + 8; omega
  | ⟨1, _⟩ =>
    show win0_4.index _ (1 : Fin 2) * 128 ≤ (i 1).val ∧ (i 1).val < win0_4.index _ (1 : Fin 2) * 128 + 128
    rw [e41]; omega

/-- THE OUTPUT ARRAY after the region is `outArray` of the argument arrays. -/
theorem final (c : Dev nD) : (dats m 0 c).arrAt 4 cfg0.N = outArray (argX m c) (argR m c) (argM m c) :=
  (dats m 0 c).arrAt_eq_of_cover 4 _ (fun t _ => flushed_eq m c t) covered

end Cert.GmmLoss

end
-- ==== Proof.KernelResult.lean ====
/-
  The kernel program's result: the host lines after the region sum the `[128, 128]` output array, multiply by 2⁻¹⁰ and by 2⁻²³;
  the array holds 1024 copies' worth of the sum of every summand, so the result is that sum divided by 2²³.
-/
import proofs.«169104_j7834020348325_2_alg».proof.Proof.OutputArray

set_option maxRecDepth 16384

noncomputable section

open scoped BigOperators

namespace Cert.GmmLoss

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The loss, as the scalar array both programs end with. -/
def loss (X : FVec Ideal S131072x128 .f32) (R : FVec Ideal S131072x64 .f32) (M : FVec Ideal S64x128 .f32) : S_.Idx → EReal :=
  fun _ => Ideal.div (0 + total (summand two X R M)) (Ideal.ofBits .f32 0x4B000000#32)

/-- The last host line's result: the sum of the output array, times the two reciprocals, is the loss. -/
theorem tail_value (c : Dev nD) :
    (Pipeline.afterTail₀ cfgs (dats m) 0 (V0 m) [hostOps1] c main_v7 : S_.Idx → EReal)
      = loss (argX m c) (argR m c) (argM m c) := by
  unfold Pipeline.afterTail₀
  show StableHlo.after hostOps1 _ (Proc.devRef .tc main_v7) = _
  after_results
  have hA : (Pipeline.withArrays (cfgs 0).spec c (V0 m c) (fun w => (dats m 0 c).arrAt w (cfgs 0).N) (Proc.devRef .tc main_v4)
      : S128x128.Idx → EReal) = outArray (argX m c) (argR m c) (argM m c) :=
    (Pipeline.withArrays_arr spec0 launch0.win.arr_inj c _ _ 4).trans (final m c)
  rw [hA]
  funext i
  simp only [mulf_apply, constant_apply, Host.reduceAdd, Ideal.hostReduceAdd_def]
  rw [Ideal.hostReduceAdd_total reducesTo_S128x128_S_d0_1 (fun b => b.elim0)]
  rw [show (∑ j : S128x128.Idx, outArray (argX m c) (argR m c) (argM m c) j)
      = (1024 : EReal) * total (summand two (argX m c) (argR m c) (argM m c)) from sum_copies _, Ideal.ofBits_zero_f32]
  exact scale_eq _

/-- THE KERNEL PROGRAM'S RUN: every weakly fair execution terminates with the result at the loss of the argument arrays, which it leaves
    unchanged. The frame run gives every array of the region and every other buffer after the closing host lines; the result is one of
    the latter, the arguments are inputs of the region. -/
theorem kernel_run : θ_run defs (onTc (τ := τ) (main (F := Ideal))) ⟨m, fun _ => 0, ρ⟩ fun r => ∀ c : Dev nD,
      r.2.mem ((c.tc : Thread nD τ).loc main_v7) = loss (argX m c) (argR m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.GmmLoss

end
-- ==== Proof.lean ====
/- The Gaussian-mixture loss `mean_{n,k} r[n,k] · ‖X[n] − mus[k]‖²` with the squared distance expanded as
   `‖X[n]‖² + ‖mus[k]‖² − 2·X[n]·mus[k]`, over `X : [131072, 128]`, weights `r : [131072, 64]`, centres `mus : [64, 128]`.

   The reference forms every weighted squared distance, sums the 2²³ of them and divides by 2²³. The kernel cuts the rows into 16
   blocks of 8192; each grid point forms its block's weighted squared distances (the cross term by a matrix product whose operands'
   narrowing is the identity on the extended reals), sums them over the rows and then over the centres, and writes 1024 copies of that
   partial sum into its `[8, 128]` tile of a `[128, 128]` array; the host then sums the array and multiplies by 2⁻¹⁰ and by 2⁻²³.

   The two results are one extended real: every summand is the same expression of the arguments on both sides (LossSpec `summand`;
   RefLoss for the reference, BlockPartial and OutputArray for the kernel); a finite sum of extended reals may be regrouped by blocks,
   1024 copies of `p` sum to `1024·p`, and `(1024·S)·2⁻¹⁰·2⁻²³ = S / 2²³` by associativity and commutativity of the product alone
   (LossSpec `sum_copies`, `scale_eq`; the three words denote exact powers of two, LossConsts). No step distributes a product over a sum,
   so the precondition that the inputs are finite is not used for the values.

   The three frames are the generated ones (the reference's is its generated run with the result dropped); the idealization rewrote
   nothing, so `preserves` is `True`. -/
import proofs.«169104_j7834020348325_2_alg».proof.Defs
import proofs.«169104_j7834020348325_2_alg».proof.Proof.Gen.Kernel
import proofs.«169104_j7834020348325_2_alg».proof.Proof.Gen.Kernel.Skeleton
import proofs.«169104_j7834020348325_2_alg».proof.Proof.Gen.Kernel.Launch
import proofs.«169104_j7834020348325_2_alg».proof.Proof.Gen.Kernel.Points
import proofs.«169104_j7834020348325_2_alg».proof.Proof.Gen.Kernel.Frame
import proofs.«169104_j7834020348325_2_alg».proof.Proof.Gen.KernelIdeal
import proofs.«169104_j7834020348325_2_alg».proof.Proof.Gen.KernelIdeal.Skeleton
import proofs.«169104_j7834020348325_2_alg».proof.Proof.Gen.KernelIdeal.Launch
import proofs.«169104_j7834020348325_2_alg».proof.Proof.Gen.KernelIdeal.Points
import proofs.«169104_j7834020348325_2_alg».proof.Proof.Gen.KernelIdeal.Frame
import proofs.«169104_j7834020348325_2_alg».proof.Proof.Gen.ReferenceIdeal
import proofs.«169104_j7834020348325_2_alg».proof.Proof.Gen.Pre_finite_inputs
import proofs.«169104_j7834020348325_2_alg».proof.Proof.Gen.ReferenceIdeal.Run
import proofs.«169104_j7834020348325_2_alg».proof.Proof.Gen.ReferenceIdeal.Read
import proofs.«169104_j7834020348325_2_alg».proof.Proof.RefLoss
import proofs.«169104_j7834020348325_2_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read at the extended reals. -/
theorem preserves : Cert.preserves_Kernel_KernelIdeal := trivial

/-- Both programs, from memories agreeing on the arguments, end with the loss of those arguments. -/
theorem algebraic : Cert.algebraic_KernelIdeal_ReferenceIdeal := by
  intro m ρ m' ρ' _ hagree
  refine ⟨fun c => Cert.GmmLoss.loss (Cert.GmmLoss.argX m c) (Cert.GmmLoss.argR m c) (Cert.GmmLoss.argM m c),
    Cert.GmmLoss.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.GmmLoss.ref_result, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
